-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64x64 : Shape := ⟨2, ![64, 64]⟩
abbrev S64x40 : Shape := ⟨2, ![64, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_

variable [Facts]

def fn_part1 {F : FTy → Type} [FloatOps F] (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x64 .f32) (main_arg3 : FVec F S64x64 .f32) (main_arg4 : FVec F S64x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64x64 : Shape := ⟨2, ![64, 64]⟩
abbrev S64x40 : Shape := ⟨2, ![64, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 95
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64x64, .f32⟩
  | .hbm, ⟨4, _⟩ => ⟨S64x40, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S100000x40, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x40, .f32⟩
  | .hbm, ⟨88, _⟩ => ⟨S1700000x40, .f32⟩
  | .hbm, ⟨89, _⟩ => ⟨S1700000x40, .f32⟩
  | .hbm, ⟨90, _⟩ => ⟨S_, .f32⟩
  | .hbm, ⟨91, _⟩ => ⟨S100000x40, .f32⟩
  | .hbm, ⟨92, _⟩ => ⟨S1700000x1, .i32⟩
  | .hbm, ⟨93, _⟩ => ⟨S100000x40, .f32⟩
  | .hbm, ⟨94, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64x64 : Shape := ⟨2, ![64, 64]⟩
abbrev S64x40 : Shape := ⟨2, ![64, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S100000x40 : Shape := ⟨2, ![100000, 40]⟩
abbrev S1700000x40 : Shape := ⟨2, ![1700000, 40]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64x64, .f32⟩
  | .hbm, ⟨4, _⟩ => ⟨S64x40, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x40, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x40, .f32⟩
  | .hbm, ⟨95, _⟩ => ⟨S1700000x1, .f32⟩
  | .hbm, ⟨96, _⟩ => ⟨S1700000x40, .f32⟩
  | .hbm, ⟨97, _⟩ => ⟨S1700000x40, .f32⟩
  | .hbm, ⟨98, _⟩ => ⟨S_, .f32⟩
  | .hbm, ⟨99, _⟩ => ⟨S100000x40, .f32⟩
  | .hbm, ⟨100, _⟩ => ⟨S1700000x1, .i32⟩
  | .hbm, ⟨101, _⟩ => ⟨S100000x40, .f32⟩
  | .hbm, ⟨102, _⟩ => ⟨S_, .f32⟩
  | .hbm, ⟨103, _⟩ => ⟨S100000x40, .f32⟩
  | .hbm, ⟨104, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_cst : Ref sig .tc := ⟨.hbm, 62, rfl⟩
abbrev main_call1_v0 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call2_cst : Ref sig .tc := ⟨.hbm, 82, rfl⟩
abbrev main_call2_v0 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call3_cst : Ref sig .tc := ⟨.hbm, 102, rfl⟩
abbrev main_call3_v0 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The kernel program's run with its result NAMED.

  The program is four kernels among stretches of host operations. Its buffer contents are followed boundary by boundary
  (`W0` at the launch, …, `W10` after the last kernel): a host stretch leaves the fold of its operations, a kernel leaves
  its arrays at what its write-backs hold and every other buffer as it found it. Every weakly fair execution terminates
  with every unscoped buffer at `W10`; read at the result buffer and at the five arguments, that is the statement below.
  What `W10` holds at the result buffer, as a function of the arguments, is the next module's subject.
-/
import proofs.«117468_j39530878992718_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the five argument arrays as launched. -/
theorem run_named : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.KernelIdeal.Named

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibProjection.lean ====
/-
  One matrix of a stack multiplied into a row block, read at an entry, over the extended reals, at any extents.

  `slab_apply`: slab `r` of a stack `[R, b, c]`, cut out as `[1, b, c]` and viewed as the matrix `[b, c]`, reads at
  `(p, q)` the stack at `(r, p, q)`.
  `dotGeneral_plain_apply`: the host's plain product of `[M, K]` by `[K, N]` at `(p, e)` is the sum over the contracted
  coordinate `f` of the left operand at `(p, f)` times the right at `(f, e)` (it has no accumulator).
  `slabProduct_apply`: a row block `[M, K]` (viewed as itself) times a one-matrix block `[1, K, N]` viewed as `[K, N]`,
  into the zero accumulator, the product viewed as the one-slab block `[1, M, N]`: at `(u, p, e)` the sum over `f` of the
  row block at `(p, f)` times the matrix block at `(0, f, e)`.
-/
import Idealize.ShloMosaic.Lib.ValueIdx
import Idealize.ShloMosaic.Lib.ValueLayout
import Idealize.ShloMosaic.Lib.Pipeline.Value
import Idealize.ShloMosaic.PureOps.Ideal.Laws
import proofs.«117468_j39530878992718_1_alg».proof.Proof.LibMatmul

open scoped BigOperators

noncomputable section

namespace Cert.Lib.Projection

open Idealize.ShloMosaic Idealize.ShloMosaic.ValueIdx

/-- Slab `r` of a stack, cut out and viewed as a matrix, at `(p, q)`. -/
theorem slab_apply {α : Type} {R b c : ℕ} (off : Fin 3 → ℕ) (x : (⟨3, ![R, b, c]⟩ : Shape).Idx → α)
    (h : (⟨3, ![R, b, c]⟩ : Shape).Slices off ⟨3, ![1, b, c]⟩)
    (h' : (⟨3, ![1, b, c]⟩ : Shape).ShapeCasts ⟨2, ![b, c]⟩)
    (r : Fin R) (h0 : off 0 = r.val) (h1 : off 1 = 0) (h2 : off 2 = 0) (p : Fin b) (q : Fin c) :
    shapeCast ⟨2, ![b, c]⟩ (extractStridedSlice ⟨3, ![1, b, c]⟩ off x h) h' (ix2 p q) = x (ix3 r p q) :=
  (shapeCast_1ab_ab_apply _ h' p q).trans (extractStridedSlice_apply off x h _ _ (fun a => by
    match a with
    | ⟨0, _⟩ => show r.val = off 0 + 0; omega
    | ⟨1, _⟩ => show p.val = off 1 + p.val; omega
    | ⟨2, _⟩ => show q.val = off 2 + q.val; omega))

/-- The host's plain product at `(p, e)`. -/
theorem dotGeneral_plain_apply {M K N : ℕ} {φ₁ φ₂ : FTy} (prec : Option ContractPrecision)
    (L : FVec Ideal ⟨2, ![M, K]⟩ φ₁) (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A row block times one matrix block into zero, viewed as a one-slab block, at `(u, p, e)`. -/
theorem slabProduct_apply {M K N : ℕ} {φ₁ φ₂ : FTy} (prec : Option ContractPrecision)
    (v0 : FVec Ideal ⟨2, ![M, K]⟩ φ₁) (h0 : (⟨2, ![M, K]⟩ : Shape).ShapeCasts ⟨2, ![M, K]⟩)
    (v2 : FVec Ideal ⟨3, ![1, K, N]⟩ φ₂) (h2 : (⟨3, ![1, K, N]⟩ : Shape).ShapeCasts ⟨2, ![K, N]⟩)
    (h3 : (⟨2, ![M, N]⟩ : Shape).ShapeCasts ⟨3, ![1, M, N]⟩) (u : Fin 1) (p : Fin M) (e : Fin N) :
    shapeCast ⟨3, ![1, M, N]⟩ (matmul (F := Ideal) (DotDims.plain M K N) prec (shapeCast ⟨2, ![M, K]⟩ v0 h0)
        (shapeCast ⟨2, ![K, N]⟩ v2 h2) (constant ⟨2, ![M, N]⟩ .f32 0x00000000#32)) h3 (ix3 u p e)
      = ∑ f : Fin K, v0 (ix2 p f) * v2 (ix3 (0 : Fin 1) f e) := by
  refine (shapeCast_ab_1ab_apply _ h3 u p e).trans ?_
  refine (Cert.Lib.Matmul.matmul_plain_zero_apply prec _ _ p e).trans ?_
  refine Finset.sum_congr rfl fun f _ => ?_
  rw [shapeCast_self, shapeCast_1ab_ab_apply]

end Cert.Lib.Projection

end
-- ==== Proof.LibLinearBlock.lean ====
/-
  A block of rows of a dense layer, read at an entry, over the extended reals, at any extents.

  A dense layer multiplies an `[N, K]` matrix `X` by a `[K, C]` matrix `W`. Cut into blocks of `R` rows, the
  block's product — both factors first rounded to a narrower float format, which changes nothing over the extended
  reals, the sum started from the zero matrix — has at `(p, e)` the entry `(r, e)` of the whole product whenever row
  `p` of the block is row `r` of `X`: both are the sum over the contracted coordinate `f` of `X (r, f) · W (f, e)`.

  * `blockProduct_eq`: that statement.
  * `reluBlockProduct_eq`: the same when the block's rows are first clamped below by a splat scalar `z`
    (`max (·, z)` entry by entry) and the whole product is taken of `max (X, z)`, the scalar there a rank-zero
    constant broadcast to `[N, K]`: clamping a block of rows is the block of the clamped rows.
  * `clampBlock_eq`: the clamp alone, a block's entry against the whole array's.
-/
import Idealize.ShloMosaic.Lib.Pipeline.Value
import Idealize.ShloMosaic.Lib.ValueIdx
import Idealize.ShloMosaic.PureOps.Ideal.Laws
import proofs.«117468_j39530878992718_1_alg».proof.Proof.LibMatmul
import proofs.«117468_j39530878992718_1_alg».proof.Proof.LibProjection

open scoped BigOperators

noncomputable section

namespace Cert.Lib.LinearBlock

open Idealize.ShloMosaic Idealize.ShloMosaic.ValueIdx

variable {N R K C : ℕ}

/-- Row `p` of a block's product with `W` is row `r` of the whole product when the block's row `p` is the
    matrix's row `r` and the block of `W` agrees with `W` on column `e`. -/
theorem blockProduct_eq (prec prec' : Option ContractPrecision)
    (xb : FVec Ideal ⟨2, ![R, K]⟩ .f32) (wb : FVec Ideal ⟨2, ![K, C]⟩ .f32)
    (X : FVec Ideal ⟨2, ![N, K]⟩ .f32) (W : FVec Ideal ⟨2, ![K, C]⟩ .f32)
    (hx : FTy.bf16.bits < FTy.f32.bits) (hw : FTy.bf16.bits < FTy.f32.bits)
    (p : Fin R) (r : Fin N) (e : Fin C)
    (hrow : ∀ f : Fin K, xb (ix2 p f) = X (ix2 r f)) (hcol : ∀ f : Fin K, wb (ix2 f e) = W (ix2 f e)) :
    matmul (F := Ideal) (DotDims.plain R K C) prec (truncf .bf16 xb hx) (truncf .bf16 wb hw)
        (constant ⟨2, ![R, C]⟩ .f32 0x00000000#32) (ix2 p e)
      = Host.dotGeneral (F := Ideal) (DotDims.plain N K C) prec' X W (ix2 r e) := by
  refine (Cert.Lib.Matmul.matmul_plain_zero_apply prec _ _ p e).trans ?_
  refine Eq.trans ?_ (Cert.Lib.Projection.dotGeneral_plain_apply prec' X W r e).symm
  exact Finset.sum_congr rfl fun f _ => by rw [truncf_apply, truncf_apply, hrow f, hcol f]

/-- A block's entry clamped below by a splat scalar is the whole array's entry clamped below by the same scalar,
    broadcast there from a rank-zero constant, wherever the block's entry is the array's. -/
theorem clampBlock_eq {s t : Shape} (zb : BitVec FTy.f32.bits) (xb : FVec Ideal s .f32) (X : FVec Ideal t .f32)
    (hc : s.ShapeCasts s) (dims0 : Fin (⟨0, ![]⟩ : Shape).rank → Fin t.rank)
    (g0 : (⟨0, ![]⟩ : Shape).BroadcastsInDim t dims0) (j : s.Idx) (i : t.Idx) (h : xb j = X i) :
    maximumf (shapeCast s xb hc) (broadcast s (Scalar.ofBits (F := Ideal) .f32 zb)) j
      = maximumf X (broadcastInDim t dims0 g0 (constant (F := Ideal) ⟨0, ![]⟩ .f32 zb)) i := by
  rw [maximumf_apply, maximumf_apply, shapeCast_self, broadcast_apply, h,
    broadcastInDim_apply dims0 g0 _ i ix0 (fun a => a.elim0), constant_apply]
  rfl

/-- The block product of rows clamped below by `z` is the whole product of the clamped matrix. -/
theorem reluBlockProduct_eq (prec prec' : Option ContractPrecision) (zb : BitVec FTy.f32.bits)
    (xb : FVec Ideal ⟨2, ![R, K]⟩ .f32) (wb : FVec Ideal ⟨2, ![K, C]⟩ .f32)
    (X : FVec Ideal ⟨2, ![N, K]⟩ .f32) (W : FVec Ideal ⟨2, ![K, C]⟩ .f32)
    (hc : (⟨2, ![R, K]⟩ : Shape).ShapeCasts ⟨2, ![R, K]⟩)
    (dims0 : Fin (⟨0, ![]⟩ : Shape).rank → Fin (⟨2, ![N, K]⟩ : Shape).rank)
    (g0 : (⟨0, ![]⟩ : Shape).BroadcastsInDim ⟨2, ![N, K]⟩ dims0)
    (hx : FTy.bf16.bits < FTy.f32.bits) (hw : FTy.bf16.bits < FTy.f32.bits)
    (p : Fin R) (r : Fin N) (e : Fin C)
    (hrow : ∀ f : Fin K, xb (ix2 p f) = X (ix2 r f)) (hcol : ∀ f : Fin K, wb (ix2 f e) = W (ix2 f e)) :
    matmul (F := Ideal) (DotDims.plain R K C) prec
        (truncf .bf16 (maximumf (shapeCast ⟨2, ![R, K]⟩ xb hc) (broadcast ⟨2, ![R, K]⟩ (Scalar.ofBits (F := Ideal) .f32 zb))) hx)
        (truncf .bf16 wb hw) (constant ⟨2, ![R, C]⟩ .f32 0x00000000#32) (ix2 p e)
      = Host.dotGeneral (F := Ideal) (DotDims.plain N K C) prec'
          (maximumf X (broadcastInDim ⟨2, ![N, K]⟩ dims0 g0 (constant (F := Ideal) ⟨0, ![]⟩ .f32 zb))) W (ix2 r e) :=
  blockProduct_eq prec prec' _ wb _ W hx hw p r e
    (fun f => clampBlock_eq zb xb X hc dims0 g0 (ix2 p f) (ix2 r f) (hrow f)) hcol

end Cert.Lib.LinearBlock

end
-- ==== Proof.Region0.lean ====
/-
  The first dense layer's kernel, from blocks to the whole array, over the extended reals.

  The kernel walks the 100000 rows of its input in 20 blocks of 5000. At block `t` it reads rows
  `5000·t … 5000·t + 4999` of the input (all 128 columns) and the whole `[128, 64]` weight matrix, and writes rows
  `5000·t … 5000·t + 4999` of the output: the rows multiplied by the weights, both factors rounded to a narrower
  format on the way in (the identity here) and the sum started from zero. Entry `(p, e)` of block `t`'s product is the
  sum over `f` of input `(5000·t + p, f)` times weight `(f, e)`, which is entry `(5000·t + p, e)` of the product of the
  WHOLE input with the weights (`whole`). The 20 blocks tile the output's rows, so after the last block the
  output array is `whole` of the two input arrays as the kernel found them (`final`).
-/
import proofs.«117468_j39530878992718_1_alg».proof.Proof.Gen.KernelIdeal.Frame
import proofs.«117468_j39530878992718_1_alg».proof.Proof.LibLinearBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The layer as ONE function of the whole input and the weights. -/
def whole (X : FVec Ideal S100000x128 .f32) (W : FVec Ideal S128x64 .f32) : FVec Ideal S100000x64 .f32 :=
  Host.dotGeneral (F := Ideal) (DotDims.plain 100000 128 64) none X W

/-- A block's product at `(p, e)` is the whole product at `(r, e)` when row `p` of the block is row `r` of the
    input and the weights' block is the weights. -/
theorem pay_at (x0 : Vec Ideal S5000x128 .f32) (x1 : Vec Ideal S128x64 .f32) (X : FVec Ideal S100000x128 .f32)
    (W : FVec Ideal S128x64 .f32) (p : Fin 5000) (e : Fin 64) (r : Fin 100000)
    (hrow : ∀ f : Fin 128, x0 (ix2 p f) = X (ix2 r f)) (hcol : ∀ f : Fin 128, x1 (ix2 f e) = W (ix2 f e)) :
    k0_pay1 (F := Ideal) x0 x1 (ix2 p e) = whole X W (ix2 r e) := by
  unfold k0_pay1 whole
  exact Cert.Lib.LinearBlock.blockProduct_eq none none x0 x1 X W _ _ p r e hrow hcol

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's block row is the grid point, every other block
    coordinate is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is row `5000·t + p` of the array. -/
def rowOf (t : Fin cfg0.N) (p : Fin 5000) : Fin 100000 :=
  ⟨t.val * 5000 + p.val, by have h : t.val < 20 := lt_of_lt_of_eq t.isLt N_0; omega⟩

/-- The input window's block at point `t`, at `(p, f)`, is the input array at `(5000·t + p, f)`. -/
theorem iblk_x (c : Dev nD) (t : Fin cfg0.N) (p : Fin 5000) (f : Fin 128) :
    (iblk0 V c 0 t : Vec Ideal S5000x128 .f32) (ix2 p f) = (V c main_arg0 : S100000x128.Idx → EReal) (ix2 (rowOf t p) f) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * f.val = f.val; rw [e1]; omega

/-- The weights' window's block, at every point, is the weight matrix. -/
theorem iblk_w (c : Dev nD) (t : Fin cfg0.N) (f : Fin 128) (e : Fin 64) :
    (iblk0 V c 1 t : Vec Ideal S128x64 .f32) (ix2 f e) = (V c main_arg2 : S128x64.Idx → EReal) (ix2 f e) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 128 + 1 * f.val = f.val; rw [e2]; omega
  | ⟨1, _⟩ => show win0_1.index t 1 * 64 + 1 * e.val = e.val; rw [e3]; omega

/-- WHAT POINT `t` WRITES BACK is block `t` of `whole` of the two input arrays as the kernel finds them. -/
theorem flushed_eq (c : Dev nD) (t : Fin cfg0.N) :
    (dat0 V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx_facts t
  funext j
  obtain ⟨p, e, rfl⟩ : ∃ (p : Fin 5000) (e : Fin 64), j = ix2 p e := ⟨j 0, j 1, eq_ix2 j⟩
  show k0_pay1 (F := Ideal) (iblk0 V c 0 t) (iblk0 V c 1 t) (ix2 p e)
    = whole (V c main_arg0) (V c main_arg2) (((cfg0.win 2).blk t).view.emb (ix2 p e))
  have hemb : ((cfg0.win 2).blk t).view.emb (ix2 p e) = (ix2 (rowOf t p) e : S100000x64.Idx) := by
    funext a
    apply Fin.ext
    match a with
    | ⟨0, _⟩ => show win0_2.index t 0 * 5000 + 1 * p.val = t.val * 5000 + p.val; rw [e4]; omega
    | ⟨1, _⟩ => show win0_2.index t 1 * 64 + 1 * e.val = e.val; rw [e5]; omega
  rw [hemb]
  exact pay_at (iblk0 V c 0 t) (iblk0 V c 1 t) (V c main_arg0) (V c main_arg2) p e (rowOf t p)
    (fun f => iblk_x V c t p f) (fun f => iblk_w V c t f e)

/-- An index of the output array is in point `t`'s block iff each coordinate is in the block's range on its axis. -/
theorem mem_blk (t : Fin cfg0.N) (i : S100000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Every row of the output lies in the block of the point `row / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val ∧ (i 1).val < win0_2.index ⟨(i 0).val / 5000, ht⟩ 1 * 64 + 64
    rw [e5]; omega

/-- THE OUTPUT ARRAY after the last block: `whole` of the two input arrays as the kernel found them. -/
theorem final (c : Dev nD) : (dat0 V c).arrAt 2 cfg0.N = whole (V c main_arg0) (V c main_arg2) :=
  (dat0 V c).arrAt_eq_of_cover 2 (whole (V c main_arg0) (V c main_arg2)) (fun t _ => flushed_eq V c t) cover

end Cert.KernelIdeal.Region0

end
-- ==== Proof.Region1.lean ====
/-
  The second dense layer's kernel, from blocks to the whole array, over the extended reals.

  The kernel walks the 100000 rows of its input in 20 blocks of 5000. At block `t` it reads rows
  `5000·t … 5000·t + 4999` of the input (all 64 columns) and the whole `[64, 64]` weight matrix, and writes rows
  `5000·t … 5000·t + 4999` of the output: the rows clamped below by zero, then multiplied by the weights, both factors rounded to a narrower
  format on the way in (the identity here) and the sum started from zero. Entry `(p, e)` of block `t`'s product is the
  sum over `f` of input `(5000·t + p, f)` times weight `(f, e)`, which is entry `(5000·t + p, e)` of the product of the
  WHOLE input, clamped below by zero, with the weights (`whole`). The 20 blocks tile the output's rows, so after the last block the
  output array is `whole` of the two input arrays as the kernel found them (`final`).
-/
import proofs.«117468_j39530878992718_1_alg».proof.Proof.Gen.KernelIdeal.Frame
import proofs.«117468_j39530878992718_1_alg».proof.Proof.LibLinearBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The layer as ONE function of the whole input and the weights. -/
def whole (X : FVec Ideal S100000x64 .f32) (W : FVec Ideal S64x64 .f32) : FVec Ideal S100000x64 .f32 :=
  Host.dotGeneral (F := Ideal) (DotDims.plain 100000 64 64) none
    (maximumf X (broadcastInDim S100000x64 ![] bcast_S_S100000x64 (constant (F := Ideal) S_ .f32 0x00000000#32))) W

/-- A block's product at `(p, e)` is the whole product at `(r, e)` when row `p` of the block is row `r` of the
    input and the weights' block is the weights. -/
theorem pay_at (x0 : Vec Ideal S5000x64 .f32) (x1 : Vec Ideal S64x64 .f32) (X : FVec Ideal S100000x64 .f32)
    (W : FVec Ideal S64x64 .f32) (p : Fin 5000) (e : Fin 64) (r : Fin 100000)
    (hrow : ∀ f : Fin 64, x0 (ix2 p f) = X (ix2 r f)) (hcol : ∀ f : Fin 64, x1 (ix2 f e) = W (ix2 f e)) :
    k1_pay1 (F := Ideal) x0 x1 (ix2 p e) = whole X W (ix2 r e) := by
  unfold k1_pay1 whole
  exact Cert.Lib.LinearBlock.reluBlockProduct_eq none none 0x00000000#32 x0 x1 X W _ _ _ _ _ p r e hrow hcol

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's block row is the grid point, every other block
    coordinate is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of block `t` is row `5000·t + p` of the array. -/
def rowOf (t : Fin cfg1.N) (p : Fin 5000) : Fin 100000 :=
  ⟨t.val * 5000 + p.val, by have h : t.val < 20 := lt_of_lt_of_eq t.isLt N_1; omega⟩

/-- The input window's block at point `t`, at `(p, f)`, is the input array at `(5000·t + p, f)`. -/
theorem iblk_x (c : Dev nD) (t : Fin cfg1.N) (p : Fin 5000) (f : Fin 64) :
    (iblk1 V c 0 t : Vec Ideal S5000x64 .f32) (ix2 p f) = (V c main_v43 : S100000x64.Idx → EReal) (ix2 (rowOf t p) f) := by
  obtain ⟨e0, e1, -, -, -, -⟩ := idx_facts t
  unfold iblk1
  rw [View.read_apply]
  show V c main_v43 _ = V c main_v43 _
  congr 1
  funext a
  apply Fin.ext
  match a with
  | ⟨0, _⟩ => show win1_0.index t 0 * 5000 + 1 * p.val = t.val * 5000 + p.val; rw [e0]; omega
  | ⟨1, _⟩ => show win1_0.index t 1 * 64 + 1 * f.val = f.val; rw [e1]; omega

/-- The weights' window's block, at every point, is the weight matrix. -/
theorem iblk_w (c : Dev nD) (t : Fin cfg1.N) (f : Fin 64) (e : Fin 64) :
    (iblk1 V c 1 t : Vec Ideal S64x64 .f32) (ix2 f e) = (V c main_arg3 : S64x64.Idx → EReal) (ix2 f e) := by
  obtain ⟨-, -, e2, e3, -, -⟩ := idx_facts t
  unfold iblk1
  rw [View.read_apply]
  show V c main_arg3 _ = V c main_arg3 _
  congr 1
  funext a
  apply Fin.ext
  match a with
  | ⟨0, _⟩ => show win1_1.index t 0 * 64 + 1 * f.val = f.val; rw [e2]; omega
  | ⟨1, _⟩ => show win1_1.index t 1 * 64 + 1 * e.val = e.val; rw [e3]; omega

/-- WHAT POINT `t` WRITES BACK is block `t` of `whole` of the two input arrays as the kernel finds them. -/
theorem flushed_eq (c : Dev nD) (t : Fin cfg1.N) :
    (dat1 V c).flushed 2 t
      = ((cfg1.win 2).blk t).view.read (Elt Ideal) (whole (V c main_v43) (V c main_arg3)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨-, -, -, -, e4, e5⟩ := idx_facts t
  funext j
  obtain ⟨p, e, rfl⟩ : ∃ (p : Fin 5000) (e : Fin 64), j = ix2 p e := ⟨j 0, j 1, eq_ix2 j⟩
  show k1_pay1 (F := Ideal) (iblk1 V c 0 t) (iblk1 V c 1 t) (ix2 p e)
    = whole (V c main_v43) (V c main_arg3) (((cfg1.win 2).blk t).view.emb (ix2 p e))
  have hemb : ((cfg1.win 2).blk t).view.emb (ix2 p e) = (ix2 (rowOf t p) e : S100000x64.Idx) := by
    funext a
    apply Fin.ext
    match a with
    | ⟨0, _⟩ => show win1_2.index t 0 * 5000 + 1 * p.val = t.val * 5000 + p.val; rw [e4]; omega
    | ⟨1, _⟩ => show win1_2.index t 1 * 64 + 1 * e.val = e.val; rw [e5]; omega
  rw [hemb]
  exact pay_at (iblk1 V c 0 t) (iblk1 V c 1 t) (V c main_v43) (V c main_arg3) p e (rowOf t p)
    (fun f => iblk_x V c t p f) (fun f => iblk_w V c t f e)

/-- An index of the output array is in point `t`'s block iff each coordinate is in the block's range on its axis. -/
theorem mem_blk (t : Fin cfg1.N) (i : S100000x64.Idx) :
    i ∈ ((cfg1.win 2).blk t).view.set
      ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- Every row of the output lies in the block of the point `row / 5000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val ∧ (i 1).val < win1_2.index ⟨(i 0).val / 5000, ht⟩ 1 * 64 + 64
    rw [e5]; omega

/-- THE OUTPUT ARRAY after the last block: `whole` of the two input arrays as the kernel found them. -/
theorem final (c : Dev nD) : (dat1 V c).arrAt 2 cfg1.N = whole (V c main_v43) (V c main_arg3) :=
  (dat1 V c).arrAt_eq_of_cover 2 (whole (V c main_v43) (V c main_arg3)) (fun t _ => flushed_eq V c t) cover

end Cert.KernelIdeal.Region1

end
-- ==== Proof.Region2.lean ====
/-
  The third dense layer's kernel, from blocks to the whole array, over the extended reals.

  The kernel walks the 100000 rows of its input in 20 blocks of 5000. At block `t` it reads rows
  `5000·t … 5000·t + 4999` of the input (all 64 columns) and the whole `[64, 40]` weight matrix, and writes rows
  `5000·t … 5000·t + 4999` of the output: the rows clamped below by zero, then multiplied by the weights, both factors rounded to a narrower
  format on the way in (the identity here) and the sum started from zero. Entry `(p, e)` of block `t`'s product is the
  sum over `f` of input `(5000·t + p, f)` times weight `(f, e)`, which is entry `(5000·t + p, e)` of the product of the
  WHOLE input, clamped below by zero, with the weights (`whole`). The 20 blocks tile the output's rows, so after the last block the
  output array is `whole` of the two input arrays as the kernel found them (`final`).
-/
import proofs.«117468_j39530878992718_1_alg».proof.Proof.Gen.KernelIdeal.Frame
import proofs.«117468_j39530878992718_1_alg».proof.Proof.LibLinearBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

/-- The layer as ONE function of the whole input and the weights. -/
def whole (X : FVec Ideal S100000x64 .f32) (W : FVec Ideal S64x40 .f32) : FVec Ideal S100000x40 .f32 :=
  Host.dotGeneral (F := Ideal) (DotDims.plain 100000 64 40) none
    (maximumf X (broadcastInDim S100000x64 ![] bcast_S_S100000x64 (constant (F := Ideal) S_ .f32 0x00000000#32))) W

/-- A block's product at `(p, e)` is the whole product at `(r, e)` when row `p` of the block is row `r` of the
    input and the weights' block is the weights. -/
theorem pay_at (x0 : Vec Ideal S5000x64 .f32) (x1 : Vec Ideal S64x40 .f32) (X : FVec Ideal S100000x64 .f32)
    (W : FVec Ideal S64x40 .f32) (p : Fin 5000) (e : Fin 40) (r : Fin 100000)
    (hrow : ∀ f : Fin 64, x0 (ix2 p f) = X (ix2 r f)) (hcol : ∀ f : Fin 64, x1 (ix2 f e) = W (ix2 f e)) :
    k2_pay1 (F := Ideal) x0 x1 (ix2 p e) = whole X W (ix2 r e) := by
  unfold k2_pay1 whole
  exact Cert.Lib.LinearBlock.reluBlockProduct_eq none none 0x00000000#32 x0 x1 X W _ _ _ _ _ p r e hrow hcol

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's block row is the grid point, every other block
    coordinate is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of block `t` is row `5000·t + p` of the array. -/
def rowOf (t : Fin cfg2.N) (p : Fin 5000) : Fin 100000 :=
  ⟨t.val * 5000 + p.val, by have h : t.val < 20 := lt_of_lt_of_eq t.isLt N_2; omega⟩

/-- The input window's block at point `t`, at `(p, f)`, is the input array at `(5000·t + p, f)`. -/
theorem iblk_x (c : Dev nD) (t : Fin cfg2.N) (p : Fin 5000) (f : Fin 64) :
    (iblk2 V c 0 t : Vec Ideal S5000x64 .f32) (ix2 p f) = (V c main_v56 : S100000x64.Idx → EReal) (ix2 (rowOf t p) f) := by
  obtain ⟨e0, e1, -, -, -, -⟩ := idx_facts t
  unfold iblk2
  rw [View.read_apply]
  show V c main_v56 _ = V c main_v56 _
  congr 1
  funext a
  apply Fin.ext
  match a with
  | ⟨0, _⟩ => show win2_0.index t 0 * 5000 + 1 * p.val = t.val * 5000 + p.val; rw [e0]; omega
  | ⟨1, _⟩ => show win2_0.index t 1 * 64 + 1 * f.val = f.val; rw [e1]; omega

/-- The weights' window's block, at every point, is the weight matrix. -/
theorem iblk_w (c : Dev nD) (t : Fin cfg2.N) (f : Fin 64) (e : Fin 40) :
    (iblk2 V c 1 t : Vec Ideal S64x40 .f32) (ix2 f e) = (V c main_arg4 : S64x40.Idx → EReal) (ix2 f e) := by
  obtain ⟨-, -, e2, e3, -, -⟩ := idx_facts t
  unfold iblk2
  rw [View.read_apply]
  show V c main_arg4 _ = V c main_arg4 _
  congr 1
  funext a
  apply Fin.ext
  match a with
  | ⟨0, _⟩ => show win2_1.index t 0 * 64 + 1 * f.val = f.val; rw [e2]; omega
  | ⟨1, _⟩ => show win2_1.index t 1 * 40 + 1 * e.val = e.val; rw [e3]; omega

/-- WHAT POINT `t` WRITES BACK is block `t` of `whole` of the two input arrays as the kernel finds them. -/
theorem flushed_eq (c : Dev nD) (t : Fin cfg2.N) :
    (dat2 V c).flushed 2 t
      = ((cfg2.win 2).blk t).view.read (Elt Ideal) (whole (V c main_v56) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x40) hz]
  obtain ⟨-, -, -, -, e4, e5⟩ := idx_facts t
  funext j
  obtain ⟨p, e, rfl⟩ : ∃ (p : Fin 5000) (e : Fin 40), j = ix2 p e := ⟨j 0, j 1, eq_ix2 j⟩
  show k2_pay1 (F := Ideal) (iblk2 V c 0 t) (iblk2 V c 1 t) (ix2 p e)
    = whole (V c main_v56) (V c main_arg4) (((cfg2.win 2).blk t).view.emb (ix2 p e))
  have hemb : ((cfg2.win 2).blk t).view.emb (ix2 p e) = (ix2 (rowOf t p) e : S100000x40.Idx) := by
    funext a
    apply Fin.ext
    match a with
    | ⟨0, _⟩ => show win2_2.index t 0 * 5000 + 1 * p.val = t.val * 5000 + p.val; rw [e4]; omega
    | ⟨1, _⟩ => show win2_2.index t 1 * 40 + 1 * e.val = e.val; rw [e5]; omega
  rw [hemb]
  exact pay_at (iblk2 V c 0 t) (iblk2 V c 1 t) (V c main_v56) (V c main_arg4) p e (rowOf t p)
    (fun f => iblk_x V c t p f) (fun f => iblk_w V c t f e)

/-- An index of the output array is in point `t`'s block iff each coordinate is in the block's range on its axis. -/
theorem mem_blk (t : Fin cfg2.N) (i : S100000x40.Idx) :
    i ∈ ((cfg2.win 2).blk t).view.set
      ↔ ∀ a : Fin 2, win2_2.index t a * S5000x40.size a ≤ (i a).val ∧ (i a).val < win2_2.index t a * S5000x40.size a + S5000x40.size a := by
  show i ∈ ((View.whole main_v57).slice (win2_2.rect t)).set ↔ _
  rw [View.set_slice_whole, Rect.mem_set_unit]
  exact Iff.rfl

/-- Every row of the output lies in the block of the point `row / 5000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 40 ≤ (i 1).val ∧ (i 1).val < win2_2.index ⟨(i 0).val / 5000, ht⟩ 1 * 40 + 40
    rw [e5]; omega

/-- THE OUTPUT ARRAY after the last block: `whole` of the two input arrays as the kernel found them. -/
theorem final (c : Dev nD) : (dat2 V c).arrAt 2 cfg2.N = whole (V c main_v56) (V c main_arg4) :=
  (dat2 V c).arrAt_eq_of_cover 2 (whole (V c main_v56) (V c main_arg4)) (fun t _ => flushed_eq V c t) cover

end Cert.KernelIdeal.Region2

end
-- ==== Proof.Region3.lean ====
/-
  The final activation's kernel, from blocks to the whole array, over the extended reals.

  The kernel walks the 100000 rows of its input in 20 blocks of 5000 and clamps every entry of a block below by zero.
  Entry `(p, e)` of block `t`'s result is `max (input (5000·t + p, e), 0)`, which is entry `(5000·t + p, e)` of the WHOLE
  input clamped below by zero (`whole`). The 20 blocks tile the output's rows, so after the last block the output array is
  `whole` of the input array as the kernel found it (`final`).
-/
import proofs.«117468_j39530878992718_1_alg».proof.Proof.Gen.KernelIdeal.Frame
import proofs.«117468_j39530878992718_1_alg».proof.Proof.LibLinearBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

/-- The activation as ONE function of the whole input. -/
def whole (X : FVec Ideal S100000x40 .f32) : FVec Ideal S100000x40 .f32 :=
  maximumf X (broadcastInDim S100000x40 ![] bcast_S_S100000x40 (constant (F := Ideal) S_ .f32 0x00000000#32))

/-- A block's clamped entry is the whole array's clamped entry where the block's entry is the array's. -/
theorem pay_at (x0 : Vec Ideal S5000x40 .f32) (X : FVec Ideal S100000x40 .f32) (j : S5000x40.Idx) (i : S100000x40.Idx)
    (h : x0 j = X i) : k3_pay1 (F := Ideal) x0 j = whole X i := by
  unfold k3_pay1 whole
  exact Cert.Lib.LinearBlock.clampBlock_eq 0x00000000#32 x0 X _ _ _ j i h

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's block row is the grid point, the block column
    is zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- WHAT POINT `t` WRITES BACK is block `t` of `whole` of the input array as the kernel finds it: the input's and the
    output's index maps are one function of the grid point, so an entry of the input's block is the array's entry at the
    output block's position. -/
theorem flushed_eq (c : Dev nD) (t : Fin cfg3.N) :
    (dat3 V c).flushed 1 t = ((cfg3.win 1).blk t).view.read (Elt Ideal) (whole (V c main_v69)) := by
  show (cfg3.win 1).cut (grid3.coords t) ((dat3 V c).after 1 t) = _
  rw [after3_1]
  unfold out3_1
  rw [View.canon_unit_zero hz]
  simp only [View.ld_unit_zero (S := S5000x40) hz]
  funext j
  show k3_pay1 (F := Ideal) (iblk3 V c 0 t) j = whole (V c main_v69) (((cfg3.win 1).blk t).view.emb j)
  refine pay_at (iblk3 V c 0 t) (V c main_v69) j _ ?_
  unfold iblk3
  rw [View.read_apply]
  show V c main_v69 _ = V c main_v69 _
  rfl

/-- An index of the output array is in point `t`'s block iff each coordinate is in the block's range on its axis. -/
theorem mem_blk (t : Fin cfg3.N) (i : S100000x40.Idx) :
    i ∈ ((cfg3.win 1).blk t).view.set
      ↔ ∀ a : Fin 2, win3_1.index t a * S5000x40.size a ≤ (i a).val ∧ (i a).val < win3_1.index t a * S5000x40.size a + S5000x40.size a := by
  show i ∈ ((View.whole main_v70).slice (win3_1.rect t)).set ↔ _
  rw [View.set_slice_whole, Rect.mem_set_unit]
  exact Iff.rfl

/-- Every row of the output lies in the block of the point `row / 5000`. -/
theorem cover (i : S100000x40.Idx) :
    ∃ t : Fin cfg3.N, (cfg3.win 1).flush t = true ∧ i ∈ ((cfg3.win 1).blk t).view.set := by
  have hi0 : (i 0).val < 100000 := (i 0).isLt
  have hi1 : (i 1).val < 40 := (i 1).isLt
  have hN : cfg3.N = 20 := N_3
  have ht : (i 0).val / 5000 < cfg3.N := by rw [hN]; omega
  obtain ⟨-, -, e2, e3⟩ := idx_facts ⟨(i 0).val / 5000, ht⟩
  refine ⟨⟨(i 0).val / 5000, ht⟩, flush3_1 _, ?_⟩
  rw [mem_blk]
  intro a
  match a with
  | ⟨0, _⟩ =>
    show win3_1.index ⟨(i 0).val / 5000, ht⟩ 0 * 5000 ≤ (i 0).val ∧ (i 0).val < win3_1.index ⟨(i 0).val / 5000, ht⟩ 0 * 5000 + 5000
    rw [e2]; show (i 0).val / 5000 * 5000 ≤ (i 0).val ∧ (i 0).val < (i 0).val / 5000 * 5000 + 5000; omega
  | ⟨1, _⟩ =>
    show win3_1.index ⟨(i 0).val / 5000, ht⟩ 1 * 40 ≤ (i 1).val ∧ (i 1).val < win3_1.index ⟨(i 0).val / 5000, ht⟩ 1 * 40 + 40
    rw [e3]; omega

/-- THE OUTPUT ARRAY after the last block: `whole` of the input array as the kernel found it. -/
theorem final (c : Dev nD) : (dat3 V c).arrAt 1 cfg3.N = whole (V c main_v69) :=
  (dat3 V c).arrAt_eq_of_cover 1 (whole (V c main_v69)) (fun t _ => flushed_eq V c t) cover

end Cert.KernelIdeal.Region3

end
-- ==== Proof.Spec.lean ====
/-
  The three-layer graph convolution as ONE function of the five argument arrays, over the extended reals.

  The graph has 100000 nodes and 1600000 edges given as a `[2, 1600000]` array of node numbers (row 0 the sources, row 1
  the destinations); every node also gets an edge to itself, so there are 1700000 edges in all (`src`, `dst`: the given
  row followed by `0 … 99999`). The degree of a node is the number of edges that end there (`deg`: ones scattered onto
  the destinations); `dinv` is its inverse square root where the degree is positive and zero elsewhere; the weight of an
  edge is `dinv` at its source times `dinv` at its destination (`norm`, and `normCol` the same as a column).
  Node numbers are read the way array indexing reads them: a negative number counts from the end (`col`).

  One layer multiplies the node features by a weight matrix (`lin0`, `lin1`, `lin2`), gathers the product's row at every
  edge's source, scales it by the edge's weight and adds it into the row of the edge's destination (`agg64`, `agg40`);
  between layers, and after the last, every entry is clamped below by zero (`relu64`, `relu40`). `out` is the whole
  network. Both programs of this certificate compute `out` of their arguments: the reference operation by operation, the
  kernel with the products (and the clamp before each) done block by block.
-/
import proofs.«117468_j39530878992718_1_alg».proof.Proof.Gen.ReferenceIdeal
import Idealize.ShloMosaic.PureOps.Ideal

noncomputable section

namespace Cert.Spec

open Cert.ReferenceIdeal Cert.ReferenceIdeal.Gen Idealize.ShloMosaic

/-- The edges' sources: row 0 of the edge array, then every node once (the added self-edges). -/
def src (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The edges' destinations: row 1 of the edge array, then every node once. -/
def dst (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- Node numbers as a column of gather indices, a negative number counted from the end (`v + 100000`). -/
def col (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A node's degree: one added at the destination of every edge, from zero. -/
def deg (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (dst e))
    (broadcastInDim S1700000 ![] bcast_S_S1700000 (constant (F := Ideal) S_ .f32 0x3F800000#32))

/-- The inverse square root of the degree where it is positive, zero elsewhere. -/
def dinv (e : IVec S2x1600000 32) : FVec Ideal S100000 .f32 :=
  select (cmpf (F := Ideal) .ogt (deg e) (broadcastInDim S100000 ![] bcast_S_S100000 (constant (F := Ideal) S_ .f32 0x00000000#32)))
    (Host.rsqrt (F := Ideal) (deg e))
    (broadcastInDim S100000 ![] bcast_S_S100000 (constant (F := Ideal) S_ .f32 0x00000000#32))

/-- An edge's weight: `dinv` at its source times `dinv` at its destination. -/
def norm (e : IVec S2x1600000 32) : FVec Ideal S1700000 .f32 :=
  mulf (Host.gather gather_S100000_S1700000x1_S1700000_n_0_n_n_0_1_1 (dinv e) (col (src e)))
    (Host.gather gather_S100000_S1700000x1_S1700000_n_0_n_n_0_1_1 (dinv e) (col (dst e)))

/-- The edges' weights as a column. -/
def normCol (e : IVec S2x1600000 32) : FVec Ideal S1700000x1 .f32 :=
  broadcastInDim S1700000x1 ![0] bcast_S1700000_S1700000x1_0 (norm e)

/-- Message passing on 64 features: the row of `y` at every edge's source, times the edge's weight, added into the row of
    the edge's destination, from zero. -/
def agg64 (y : FVec Ideal S100000x64 .f32) (e : IVec S2x1600000 32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 (dst e))
    (mulf (Host.gather gather_S100000x64_S1700000x1_S1700000x64_1_0_n_n_0_1_164 y (col (src e)))
      (broadcastInDim S1700000x64 ![0, 1] bcast_S1700000x1_S1700000x64_0_1 (normCol e)))

/-- The same on 40 features. -/
def agg40 (y : FVec Ideal S100000x40 .f32) (e : IVec S2x1600000 32) : FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 (dst e))
    (mulf (Host.gather gather_S100000x40_S1700000x1_S1700000x40_1_0_n_n_0_1_140 y (col (src e)))
      (broadcastInDim S1700000x40 ![0, 1] bcast_S1700000x1_S1700000x40_0_1 (normCol e)))

/-- Every entry clamped below by zero, on 64 features … -/
def relu64 (y : FVec Ideal S100000x64 .f32) : FVec Ideal S100000x64 .f32 :=
  maximumf y (broadcastInDim S100000x64 ![] bcast_S_S100000x64 (constant (F := Ideal) S_ .f32 0x00000000#32))

/-- … and on 40. -/
def relu40 (y : FVec Ideal S100000x40 .f32) : FVec Ideal S100000x40 .f32 :=
  maximumf y (broadcastInDim S100000x40 ![] bcast_S_S100000x40 (constant (F := Ideal) S_ .f32 0x00000000#32))

/-- The three products of node features with a weight matrix. -/
def lin0 (x : FVec Ideal S100000x128 .f32) (w : FVec Ideal S128x64 .f32) : FVec Ideal S100000x64 .f32 :=
  Host.dotGeneral (F := Ideal) dot_S100000x128_S128x64_S100000x64_1_0_0_1_n_n none x w
def lin1 (h : FVec Ideal S100000x64 .f32) (w : FVec Ideal S64x64 .f32) : FVec Ideal S100000x64 .f32 :=
  Host.dotGeneral (F := Ideal) dot_S100000x64_S64x64_S100000x64_1_0_0_1_n_n none h w
def lin2 (h : FVec Ideal S100000x64 .f32) (w : FVec Ideal S64x40 .f32) : FVec Ideal S100000x40 .f32 :=
  Host.dotGeneral (F := Ideal) dot_S100000x64_S64x40_S100000x40_1_0_0_1_n_n none h w

/-- The node features after each layer's message passing … -/
def h1 (x : FVec Ideal S100000x128 .f32) (e : IVec S2x1600000 32) (w0 : FVec Ideal S128x64 .f32) : FVec Ideal S100000x64 .f32 :=
  agg64 (lin0 x w0) e
def h2 (x : FVec Ideal S100000x128 .f32) (e : IVec S2x1600000 32) (w0 : FVec Ideal S128x64 .f32) (w1 : FVec Ideal S64x64 .f32) :
    FVec Ideal S100000x64 .f32 :=
  agg64 (lin1 (relu64 (h1 x e w0)) w1) e
def h3 (x : FVec Ideal S100000x128 .f32) (e : IVec S2x1600000 32) (w0 : FVec Ideal S128x64 .f32) (w1 : FVec Ideal S64x64 .f32)
    (w2 : FVec Ideal S64x40 .f32) : FVec Ideal S100000x40 .f32 :=
  agg40 (lin2 (relu64 (h2 x e w0 w1)) w2) e

/-- … and the network's result. -/
def out (x : FVec Ideal S100000x128 .f32) (e : IVec S2x1600000 32) (w0 : FVec Ideal S128x64 .f32) (w1 : FVec Ideal S64x64 .f32)
    (w2 : FVec Ideal S64x40 .f32) : FVec Ideal S100000x40 .f32 :=
  relu40 (h3 x e w0 w1 w2)

end Cert.Spec

end
-- ==== Proof.KernelFolds.lean ====
/-
  The kernel program's host operations, read as the specification's named pieces.

  Unfolding a stretch of host operations leaves the operations' own spelling of each piece of the network: the edges' sources
  and destinations as a row of the edge array joined to `0 … 99999`, the gather indices as those numbers with the negative
  ones counted from the end, the degrees as a scatter-add of ones, and so on. Each lemma below says that one such spelling,
  over the pieces already named, IS the specification's next piece (by unfolding the specification's definition), so that
  rewriting with them, innermost first, turns a stretch's result into the specification's term.
  `join` is the join of the two index vectors as a plain two-argument function.
-/
import proofs.«117468_j39530878992718_1_alg».proof.Proof.Gen.KernelIdeal.Frame
import proofs.«117468_j39530878992718_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Folds

open Cert.KernelIdeal Cert.KernelIdeal.Gen

/-- A row of 1600000 node numbers followed by 100000 more, as a function of the two vectors. -/
def join (a : (⟨S1600000, .i32⟩ : BufTy).Contents (Elt Ideal)) (b : (⟨S100000, .i32⟩ : BufTy).Contents (Elt Ideal)) :
    (⟨S1700000, .i32⟩ : BufTy).Contents (Elt Ideal) :=
  concatenate S1700000 0 [⟨S1600000, a⟩, ⟨S100000, b⟩] concatenates_S1600000_S100000_S1700000_d0

/-- The program's join operation is `join`. -/
theorem join_eq : ((fun a b => concatenate S1700000 0 [⟨S1600000, a⟩, ⟨S100000, b⟩] concatenates_S1600000_S100000_S1700000_d0) :
    (⟨S1600000, .i32⟩ : BufTy).Contents (Elt Ideal) → (⟨S100000, .i32⟩ : BufTy).Contents (Elt Ideal) → (⟨S1700000, .i32⟩ : BufTy).Contents (Elt Ideal))
    = join := rfl

/-- The edges' sources: row 0 of the edge array, then every node once. -/
theorem fold_src (e : IVec S2x1600000 32) :
    join (fun i => shapeCast main_v2.ty.shape (extractStridedSlice S1x1600000 ![0, 0] e slices_S2x1600000_S1x1600000_0_0) shapeCasts_S1x1600000_S1600000 i)
      (iotaInDim S100000 32 0) = Cert.Spec.src e := rfl

/-- The edges' destinations: row 1 of the edge array, then every node once. -/
theorem fold_dst (e : IVec S2x1600000 32) :
    join (fun i => shapeCast main_v5.ty.shape (extractStridedSlice S1x1600000 ![1, 0] e slices_S2x1600000_S1x1600000_1_0) shapeCasts_S1x1600000_S1600000 i)
      (iotaInDim S100000 32 0) = Cert.Spec.dst e := rfl

/-- Node numbers as a column of gather indices, the negative ones counted from the end (each operation at the buffer types
    the program gives it). -/
theorem fold_col (v : (⟨S1700000, .i32⟩ : BufTy).Contents (Elt Ideal)) :
    (broadcastInDim S1700000x1 ![0] bcast_S1700000_S1700000x1_0 : (⟨S1700000, .i32⟩ : BufTy).Contents (Elt Ideal) → (⟨S1700000x1, .i32⟩ : BufTy).Contents (Elt Ideal))
      ((select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal))
        ((cmpi .slt : (⟨S1700000, .i32⟩ : BufTy).Contents (Elt Ideal) → (⟨S1700000, .i32⟩ : BufTy).Contents (Elt Ideal) → (⟨S1700000, .i1⟩ : BufTy).Contents (Elt Ideal)) v
          ((broadcastInDim S1700000 ![] bcast_S_S1700000 : (⟨S_, .i32⟩ : BufTy).Contents (Elt Ideal) → (⟨S1700000, .i32⟩ : BufTy).Contents (Elt Ideal)) (constantI S_ 32 0#32)))
        ((addi : (⟨S1700000, .i32⟩ : BufTy).Contents (Elt Ideal) → (⟨S1700000, .i32⟩ : BufTy).Contents (Elt Ideal) → (⟨S1700000, .i32⟩ : BufTy).Contents (Elt Ideal)) v
          ((broadcastInDim S1700000 ![] bcast_S_S1700000 : (⟨S_, .i32⟩ : BufTy).Contents (Elt Ideal) → (⟨S1700000, .i32⟩ : BufTy).Contents (Elt Ideal)) (constantI S_ 32 100000#32)))
        v) = Cert.Spec.col v := rfl

/-- The degrees: ones scattered onto the destinations. -/
theorem fold_deg (e : IVec S2x1600000 32) :
    Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (Cert.Spec.dst e))
      (broadcastInDim S1700000 ![] bcast_S_S1700000 (constant (F := Ideal) S_ .f32 0x3F800000#32)) = Cert.Spec.deg e := rfl

/-- The inverse square root of the degree where it is positive, zero elsewhere. -/
theorem fold_dinv (e : IVec S2x1600000 32) :
    select (cmpf (F := Ideal) .ogt (Cert.Spec.deg e) (broadcastInDim S100000 ![] bcast_S_S100000 (constant (F := Ideal) S_ .f32 0x00000000#32)))
      (Host.rsqrt (F := Ideal) (Cert.Spec.deg e))
      (broadcastInDim S100000 ![] bcast_S_S100000 (constant (F := Ideal) S_ .f32 0x00000000#32)) = Cert.Spec.dinv e := rfl

/-- An edge's weight. -/
theorem fold_norm (e : IVec S2x1600000 32) :
    mulf (Host.gather gather_S100000_S1700000x1_S1700000_n_0_n_n_0_1_1 (Cert.Spec.dinv e) (Cert.Spec.col (Cert.Spec.src e)))
      (Host.gather gather_S100000_S1700000x1_S1700000_n_0_n_n_0_1_1 (Cert.Spec.dinv e) (Cert.Spec.col (Cert.Spec.dst e)))
      = Cert.Spec.norm e := rfl

/-- The weights as a column. -/
theorem fold_normCol (e : IVec S2x1600000 32) :
    broadcastInDim S1700000x1 ![0] bcast_S1700000_S1700000x1_0 (Cert.Spec.norm e) = Cert.Spec.normCol e := rfl

/-- Message passing on 64 features … -/
theorem fold_agg64 (y : FVec Ideal S100000x64 .f32) (e : IVec S2x1600000 32) :
    Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 (Cert.Spec.dst e))
      (mulf (Host.gather gather_S100000x64_S1700000x1_S1700000x64_1_0_n_n_0_1_164 y (Cert.Spec.col (Cert.Spec.src e)))
        (broadcastInDim S1700000x64 ![0, 1] bcast_S1700000x1_S1700000x64_0_1 (Cert.Spec.normCol e))) = Cert.Spec.agg64 y e := rfl

/-- … and on 40. -/
theorem fold_agg40 (y : FVec Ideal S100000x40 .f32) (e : IVec S2x1600000 32) :
    Host.scatterAdd (F := Ideal) scatter_S100000x40_S1700000x1_S1700000x40_1_0_0_1
      (broadcastInDim S100000x40 ![] bcast_S_S100000x40 (constant (F := Ideal) S_ .f32 0x00000000#32))
      (broadcastInDim S1700000x1 ![0] bcast_S1700000_S1700000x1_0 (Cert.Spec.dst e))
      (mulf (Host.gather gather_S100000x40_S1700000x1_S1700000x40_1_0_n_n_0_1_140 y (Cert.Spec.col (Cert.Spec.src e)))
        (broadcastInDim S1700000x40 ![0, 1] bcast_S1700000x1_S1700000x40_0_1 (Cert.Spec.normCol e))) = Cert.Spec.agg40 y e := rfl

end Cert.KernelIdeal.Folds

end
-- ==== Proof.LibAfter.lean ====
/-
  The buffer contents after a line of host operations, cut at a position: running the operations of a list in order is running its
  first `n` and then the rest from what they leave, and running a concatenation is running its parts one after the other.
-/
import Idealize.ShloMosaic.Lib.StableHlo.Run

namespace Cert.Lib.After

open Idealize.ShloMosaic Idealize.ShloMosaic.StableHlo

variable {τ : Topo} {sig : RefSig} {Val : EltTy → Type}

/-- The contents after two lines run one after the other are those after their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after a line are those after its tail past position `n`, run from what its first `n` operations leave. -/
theorem after_split (n : ℕ) (l : List (HloOp τ sig Val)) (V : Valuation τ sig Val) :
    after l V = after (l.drop n) (after (l.take n) V) := by
  rw [← after_append, List.take_append_drop]

end Cert.Lib.After
-- ==== Proof.KernelPrefix.lean ====
/-
  The kernel program before its first kernel: what the host operations leave, as functions of the argument arrays.

  The three host stretches before the first kernel compute, from the edge array alone, the edges' sources and destinations
  (a row of the edge array joined to `0 … 99999`) and the edges' weights as a column (the degrees scattered from the
  destinations, their inverse square roots through the outlined "where", gathered at both ends of every edge and multiplied);
  they write no argument. `kept3` collects what the later boundaries will still hold. Also here: each kernel's whole-array
  function is the specification's product (of the clamped features, in the second and third layer) or clamp.
-/
import proofs.«117468_j39530878992718_1_alg».proof.Proof.Gen.KernelIdeal.Frame
import proofs.«117468_j39530878992718_1_alg».proof.Proof.Region0
import proofs.«117468_j39530878992718_1_alg».proof.Proof.Region1
import proofs.«117468_j39530878992718_1_alg».proof.Proof.Region2
import proofs.«117468_j39530878992718_1_alg».proof.Proof.Region3
import proofs.«117468_j39530878992718_1_alg».proof.Proof.Spec
import proofs.«117468_j39530878992718_1_alg».proof.Proof.KernelFolds
import proofs.«117468_j39530878992718_1_alg».proof.Proof.LibAfter
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KPrefix

open Cert.KernelIdeal Cert.KernelIdeal.Gen Cert.KernelIdeal.Folds

variable (m : (ℓ : Loc nD τ sig) → Buf (Elt Ideal) ℓ) (ρ : Dev nD → PrngReg)

/-- A dense kernel's whole-array function is the specification's product, of the clamped features in the second and the
    third layer; the last kernel's is the specification's clamp. -/
theorem whole0_eq (X : FVec Ideal S100000x128 .f32) (W : FVec Ideal S128x64 .f32) : Region0.whole X W = Cert.Spec.lin0 X W := rfl
theorem whole1_eq (X : FVec Ideal S100000x64 .f32) (W : FVec Ideal S64x64 .f32) :
    Region1.whole X W = Cert.Spec.lin1 (Cert.Spec.relu64 X) W := rfl
theorem whole2_eq (X : FVec Ideal S100000x64 .f32) (W : FVec Ideal S64x40 .f32) :
    Region2.whole X W = Cert.Spec.lin2 (Cert.Spec.relu64 X) W := rfl
theorem whole3_eq (X : FVec Ideal S100000x40 .f32) : Region3.whole X = Cert.Spec.relu40 X := rfl

/-! ## Before the first kernel -/

/-- The contents at the first kernel's entry, unfolded to the three host stretches before it. -/
theorem W3_eq (c : Dev nD) (b : DevRef τ sig) :
    W3 m ρ c b = StableHlo.after hostOps0_2 (StableHlo.after hostOps0_1 (StableHlo.after hostOps0 (W0 m ρ c))) b := rfl

/-- The launch contents at an argument's buffer are the launch memory's. -/
theorem W0_arg (c : Dev nD) (b : Ref sig .tc) : W0 m ρ c (Proc.devRef .tc b) = m ((c.tc : Thread nD τ).loc b) := rfl

theorem W3_arg0 (c : Dev nD) : W3 m ρ c (Proc.devRef .tc main_arg0) = (m ((c.tc : Thread nD τ).loc main_arg0)) := by
  rw [W3_eq]; after_results_simp
theorem W3_arg2 (c : Dev nD) : W3 m ρ c (Proc.devRef .tc main_arg2) = (m ((c.tc : Thread nD τ).loc main_arg2)) := by
  rw [W3_eq]; after_results_simp
theorem W3_arg3 (c : Dev nD) : W3 m ρ c (Proc.devRef .tc main_arg3) = (m ((c.tc : Thread nD τ).loc main_arg3)) := by
  rw [W3_eq]; after_results_simp
theorem W3_arg4 (c : Dev nD) : W3 m ρ c (Proc.devRef .tc main_arg4) = (m ((c.tc : Thread nD τ).loc main_arg4)) := by
  rw [W3_eq]; after_results_simp

set_option maxHeartbeats 1000000 in
/-- The edges' sources … -/
theorem W3_v3 (c : Dev nD) : W3 m ρ c (Proc.devRef .tc main_v3) = Cert.Spec.src (m ((c.tc : Thread nD τ).loc main_arg1)) := by
  rw [W3_eq]; simp only [hostOps0, join_eq]; after_results_simp
  simp only [W0_arg m ρ c main_arg1]
  exact fold_src _

set_option maxHeartbeats 1000000 in
/-- … their destinations … -/
theorem W3_v6 (c : Dev nD) : W3 m ρ c (Proc.devRef .tc main_v6) = Cert.Spec.dst (m ((c.tc : Thread nD τ).loc main_arg1)) := by
  rw [W3_eq]; simp only [hostOps0, join_eq]; after_results_simp
  simp only [W0_arg m ρ c main_arg1]
  exact fold_dst _

/-- The contents after the first seven host operations, which compute the edges' sources and destinations. -/
def P0 (c : Dev nD) : Valuation τ sig (Elt Ideal) := StableHlo.after ((hostOps0 (F := Ideal)).take 7) (W0 m ρ c)

/-- The first kernel's entry contents, the first stretch cut after its seventh operation. -/
theorem W3_split (c : Dev nD) (b : DevRef τ sig) :
    W3 m ρ c b = StableHlo.after hostOps0_2 (StableHlo.after hostOps0_1
      (StableHlo.after ((hostOps0 (F := Ideal)).drop 7) (P0 m ρ c))) b := by
  rw [W3_eq, Cert.Lib.After.after_split 7 hostOps0]; rfl

theorem P0_v3 (c : Dev nD) : P0 m ρ c (Proc.devRef .tc main_v3) = Cert.Spec.src (m ((c.tc : Thread nD τ).loc main_arg1)) := by
  unfold P0
  simp only [hostOps0, join_eq, List.take_succ_cons, List.take_zero]
  after_results_simp
  simp only [W0_arg m ρ c main_arg1]
  exact fold_src _

theorem P0_v6 (c : Dev nD) : P0 m ρ c (Proc.devRef .tc main_v6) = Cert.Spec.dst (m ((c.tc : Thread nD τ).loc main_arg1)) := by
  unfold P0
  simp only [hostOps0, join_eq, List.take_succ_cons, List.take_zero]
  after_results_simp
  simp only [W0_arg m ρ c main_arg1]
  exact fold_dst _

set_option maxHeartbeats 2000000 in
/-- … and their weights, as a column: the degrees from the destinations, the inverse square roots (through the
    outlined "where"), gathered at both ends of every edge and multiplied. -/
theorem W3_v30 (c : Dev nD) : W3 m ρ c (Proc.devRef .tc main_v30) = Cert.Spec.normCol (m ((c.tc : Thread nD τ).loc main_arg1)) := by
  rw [W3_split]; simp only [hostOps0, List.drop_succ_cons, List.drop_zero]; after_results_simp
  simp only [TRef.toBuf, TRef.ofBuf, cast_eq, id, P0_v3 m ρ c, P0_v6 m ρ c, fold_col (Cert.Spec.src (m ((c.tc : Thread nD τ).loc main_arg1))), fold_col (Cert.Spec.dst (m ((c.tc : Thread nD τ).loc main_arg1))), fold_deg (m ((c.tc : Thread nD τ).loc main_arg1)), fold_dinv (m ((c.tc : Thread nD τ).loc main_arg1)),
    fold_norm (m ((c.tc : Thread nD τ).loc main_arg1)), fold_normCol (m ((c.tc : Thread nD τ).loc main_arg1))]

/-- What every boundary from the first kernel's entry on holds at the buffers no later operation writes: the edges'
    sources, destinations and weights (functions of the edge array alone) and the second and third weight matrices. -/
structure Kept (c : Dev nD) (W : Valuation τ sig (Elt Ideal)) : Prop where
  src : W (Proc.devRef .tc main_v3) = Cert.Spec.src (m ((c.tc : Thread nD τ).loc main_arg1))
  dst : W (Proc.devRef .tc main_v6) = Cert.Spec.dst (m ((c.tc : Thread nD τ).loc main_arg1))
  nrm : W (Proc.devRef .tc main_v30) = Cert.Spec.normCol (m ((c.tc : Thread nD τ).loc main_arg1))
  w1 : W (Proc.devRef .tc main_arg3) = (m ((c.tc : Thread nD τ).loc main_arg3))
  w2 : W (Proc.devRef .tc main_arg4) = (m ((c.tc : Thread nD τ).loc main_arg4))

theorem kept3 (c : Dev nD) : Kept m c (W3 m ρ c) :=
  ⟨W3_v3 m ρ c, W3_v6 m ρ c, W3_v30 m ρ c, W3_arg3 m ρ c, W3_arg4 m ρ c⟩

end Cert.KernelIdeal.KPrefix

end
-- ==== Proof.KernelValue.lean ====
/-
  What the kernel program's result buffer holds at the end, as a function of the five argument arrays.

  The buffer contents are followed from the launch (`W0`) to the last boundary (`W10`). The host operations before the first
  kernel compute the edges' sources, destinations and weights from the edge array (`kept3`); nothing later writes these
  three buffers or the weight matrices, so every later boundary still holds them (`kept4` … `kept8`). Each dense kernel
  leaves in its output array the product of its whole input — clamped below by zero in the second and third layers — with
  its weights (the blocks-to-array modules), and each host stretch after it gathers, scales and scatter-adds that product
  along the edges. Layer by layer the boundary's contents are the specification's `lin0`, `h1`, `lin1 (relu64 h1)`, `h2`,
  `lin2 (relu64 h2)`, `h3`, and the last kernel clamps `h3`: the result is the specification's `out`.
-/
import proofs.«117468_j39530878992718_1_alg».proof.Proof.Gen.KernelIdeal.Frame
import proofs.«117468_j39530878992718_1_alg».proof.Proof.Region0
import proofs.«117468_j39530878992718_1_alg».proof.Proof.Region1
import proofs.«117468_j39530878992718_1_alg».proof.Proof.Region2
import proofs.«117468_j39530878992718_1_alg».proof.Proof.Region3
import proofs.«117468_j39530878992718_1_alg».proof.Proof.Spec
import proofs.«117468_j39530878992718_1_alg».proof.Proof.KernelFolds
import proofs.«117468_j39530878992718_1_alg».proof.Proof.KernelPrefix
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KValue

open Cert.KernelIdeal Cert.KernelIdeal.Gen Cert.KernelIdeal.Folds Cert.KernelIdeal.KPrefix

variable (m : (ℓ : Loc nD τ sig) → Buf (Elt Ideal) ℓ) (ρ : Dev nD → PrngReg)

/-- A buffer a host stretch does not write keeps its contents: every operation's result at another buffer is what was
    there. -/
local macro "kept_by_host" : tactic => `(tactic| (show StableHlo.after _ _ _ = _; after_results_simp))

/-! ## Layer 1 -/

theorem kept4 (c : Dev nD) : Kept m c (W4 m ρ c) where
  src := (W4_of_ne m ρ c main_v3 (by decide)).trans (kept3 m ρ c).src
  dst := (W4_of_ne m ρ c main_v6 (by decide)).trans (kept3 m ρ c).dst
  nrm := (W4_of_ne m ρ c main_v30 (by decide)).trans (kept3 m ρ c).nrm
  w1 := (W4_of_ne m ρ c main_arg3 (by decide)).trans (kept3 m ρ c).w1
  w2 := (W4_of_ne m ρ c main_arg4 (by decide)).trans (kept3 m ρ c).w2

/-- The first kernel's output array: the whole input times the first weight matrix. -/
theorem W4_v31 (c : Dev nD) : W4 m ρ c (Proc.devRef .tc main_v31) = Cert.Spec.lin0 (m ((c.tc : Thread nD τ).loc main_arg0)) (m ((c.tc : Thread nD τ).loc main_arg2)) := by
  refine (W4_arr m ρ c 2).trans ?_
  refine (Region0.final (V3 m ρ) c).trans ?_
  show Region0.whole (W3 m ρ c (Proc.devRef .tc main_arg0)) (W3 m ρ c (Proc.devRef .tc main_arg2)) = _
  rw [W3_arg0, W3_arg2, whole0_eq]

theorem kept5 (c : Dev nD) : Kept m c (W5 m ρ c) where
  src := Eq.trans (by kept_by_host) (kept4 m ρ c).src
  dst := Eq.trans (by kept_by_host) (kept4 m ρ c).dst
  nrm := Eq.trans (by kept_by_host) (kept4 m ρ c).nrm
  w1 := Eq.trans (by kept_by_host) (kept4 m ρ c).w1
  w2 := Eq.trans (by kept_by_host) (kept4 m ρ c).w2

/-- After the first message passing. -/
theorem W5_v43 (c : Dev nD) : W5 m ρ c (Proc.devRef .tc main_v43) = Cert.Spec.h1 (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  simp only [(kept4 m ρ c).src, (kept4 m ρ c).dst, (kept4 m ρ c).nrm, W4_v31 m ρ c, fold_col (Cert.Spec.src (m ((c.tc : Thread nD τ).loc main_arg1))), fold_col (Cert.Spec.dst (m ((c.tc : Thread nD τ).loc main_arg1))), fold_agg64 _ (m ((c.tc : Thread nD τ).loc main_arg1))]
  unfold Cert.Spec.h1; with_reducible rfl

/-! ## Layer 2 -/

theorem kept6 (c : Dev nD) : Kept m c (W6 m ρ c) where
  src := (W6_of_ne m ρ c main_v3 (by decide)).trans (kept5 m ρ c).src
  dst := (W6_of_ne m ρ c main_v6 (by decide)).trans (kept5 m ρ c).dst
  nrm := (W6_of_ne m ρ c main_v30 (by decide)).trans (kept5 m ρ c).nrm
  w1 := ((W6_arr m ρ c 1).trans (((dat1 (V5 m ρ) c).arrAt_in 1 rfl _).trans (A_eq1 (V5 m ρ) c 1))).trans (kept5 m ρ c).w1
  w2 := (W6_of_ne m ρ c main_arg4 (by decide)).trans (kept5 m ρ c).w2

/-- The second kernel's output array: the clamped features times the second weight matrix. -/
theorem W6_v44 (c : Dev nD) : W6 m ρ c (Proc.devRef .tc main_v44)
    = Cert.Spec.lin1 (Cert.Spec.relu64 (Cert.Spec.h1 (m ((c.tc : Thread nD τ).loc main_arg0)) (m ((c.tc : Thread nD τ).loc main_arg1)) (m ((c.tc : Thread nD τ).loc main_arg2)))) (m ((c.tc : Thread nD τ).loc main_arg3)) := by
  refine (W6_arr m ρ c 2).trans ?_
  refine (Region1.final (V5 m ρ) c).trans ?_
  show Region1.whole (W5 m ρ c (Proc.devRef .tc main_v43)) (W5 m ρ c (Proc.devRef .tc main_arg3)) = _
  rw [W5_v43, (kept5 m ρ c).w1, whole1_eq]

theorem kept7 (c : Dev nD) : Kept m c (W7 m ρ c) where
  src := Eq.trans (by kept_by_host) (kept6 m ρ c).src
  dst := Eq.trans (by kept_by_host) (kept6 m ρ c).dst
  nrm := Eq.trans (by kept_by_host) (kept6 m ρ c).nrm
  w1 := Eq.trans (by kept_by_host) (kept6 m ρ c).w1
  w2 := Eq.trans (by kept_by_host) (kept6 m ρ c).w2

/-- After the second message passing. -/
theorem W7_v56 (c : Dev nD) : W7 m ρ c (Proc.devRef .tc main_v56)
    = Cert.Spec.h2 (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v56) = _
  after_results_simp
  simp only [(kept6 m ρ c).src, (kept6 m ρ c).dst, (kept6 m ρ c).nrm, W6_v44 m ρ c, fold_col (Cert.Spec.src (m ((c.tc : Thread nD τ).loc main_arg1))), fold_col (Cert.Spec.dst (m ((c.tc : Thread nD τ).loc main_arg1))), fold_agg64 _ (m ((c.tc : Thread nD τ).loc main_arg1))]
  unfold Cert.Spec.h2; with_reducible rfl

/-! ## Layer 3 -/

theorem kept8 (c : Dev nD) : Kept m c (W8 m ρ c) where
  src := (W8_of_ne m ρ c main_v3 (by decide)).trans (kept7 m ρ c).src
  dst := (W8_of_ne m ρ c main_v6 (by decide)).trans (kept7 m ρ c).dst
  nrm := (W8_of_ne m ρ c main_v30 (by decide)).trans (kept7 m ρ c).nrm
  w1 := (W8_of_ne m ρ c main_arg3 (by decide)).trans (kept7 m ρ c).w1
  w2 := ((W8_arr m ρ c 1).trans (((dat2 (V7 m ρ) c).arrAt_in 1 rfl _).trans (A_eq2 (V7 m ρ) c 1))).trans (kept7 m ρ c).w2

/-- The third kernel's output array: the clamped features times the third weight matrix. -/
theorem W8_v57 (c : Dev nD) : W8 m ρ c (Proc.devRef .tc main_v57)
    = Cert.Spec.lin2 (Cert.Spec.relu64 (Cert.Spec.h2 (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) := by
  refine (W8_arr m ρ c 2).trans ?_
  refine (Region2.final (V7 m ρ) c).trans ?_
  show Region2.whole (W7 m ρ c (Proc.devRef .tc main_v56)) (W7 m ρ c (Proc.devRef .tc main_arg4)) = _
  rw [W7_v56, (kept7 m ρ c).w2, whole2_eq]

/-- After the third message passing. -/
theorem W9_v69 (c : Dev nD) : W9 m ρ c (Proc.devRef .tc main_v69)
    = Cert.Spec.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W8 m ρ c) (Proc.devRef .tc main_v69) = _
  after_results_simp
  simp only [(kept8 m ρ c).src, (kept8 m ρ c).dst, (kept8 m ρ c).nrm, W8_v57 m ρ c, fold_col (Cert.Spec.src (m ((c.tc : Thread nD τ).loc main_arg1))), fold_col (Cert.Spec.dst (m ((c.tc : Thread nD τ).loc main_arg1))), fold_agg40 _ (m ((c.tc : Thread nD τ).loc main_arg1))]
  unfold Cert.Spec.h3; with_reducible rfl

/-! ## The final activation -/

/-- THE RESULT: the last kernel's output array is the specification's `out` of the five arguments. -/
theorem W10_v70 (c : Dev nD) : W10 m ρ c (Proc.devRef .tc main_v70)
    = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W10_arr m ρ c 1).trans ?_
  refine (Region3.final (V9 m ρ) c).trans ?_
  show Region3.whole (W9 m ρ c (Proc.devRef .tc main_v69)) = _
  rw [W9_v69, whole3_eq]
  unfold Cert.Spec.out; with_reducible rfl

end Cert.KernelIdeal.KValue

end
-- ==== Proof.RefFolds.lean ====
/-
  The array program's host operations, read as the specification's named pieces.

  Unfolding a stretch of host operations leaves the operations' own spelling of each piece of the network: the edges' sources
  and destinations as a row of the edge array joined to `0 … 99999`, the gather indices as those numbers with the negative
  ones counted from the end, the degrees as a scatter-add of ones, and so on. Each lemma below says that one such spelling,
  over the pieces already named, IS the specification's next piece (by unfolding the specification's definition), so that
  rewriting with them, innermost first, turns a stretch's result into the specification's term.
  `join` is the join of the two index vectors as a plain two-argument function.
-/
import proofs.«117468_j39530878992718_1_alg».proof.Proof.Gen.ReferenceIdeal
import proofs.«117468_j39530878992718_1_alg».proof.Proof.Spec
import Idealize.ShloMosaic.Lib.StableHlo.Run

noncomputable section

open Idealize.ShloMosaic Idealize.ShloMosaic.TcCoe Idealize.SL.Sem Idealize.ShloMosaic.StableHlo

namespace Cert.ReferenceIdeal.Folds

open Cert.ReferenceIdeal Cert.ReferenceIdeal.Gen

/-- A row of 1600000 node numbers followed by 100000 more, as a function of the two vectors. -/
def join (a : (⟨S1600000, .i32⟩ : BufTy).Contents (Elt Ideal)) (b : (⟨S100000, .i32⟩ : BufTy).Contents (Elt Ideal)) :
    (⟨S1700000, .i32⟩ : BufTy).Contents (Elt Ideal) :=
  concatenate S1700000 0 [⟨S1600000, a⟩, ⟨S100000, b⟩] concatenates_S1600000_S100000_S1700000_d0

/-- The program's join operation is `join`. -/
theorem join_eq : ((fun a b => concatenate S1700000 0 [⟨S1600000, a⟩, ⟨S100000, b⟩] concatenates_S1600000_S100000_S1700000_d0) :
    (⟨S1600000, .i32⟩ : BufTy).Contents (Elt Ideal) → (⟨S100000, .i32⟩ : BufTy).Contents (Elt Ideal) → (⟨S1700000, .i32⟩ : BufTy).Contents (Elt Ideal))
    = join := rfl

/-- The edges' sources: row 0 of the edge array, then every node once. -/
theorem fold_src (e : IVec S2x1600000 32) :
    join (fun i => shapeCast main_v2.ty.shape (extractStridedSlice S1x1600000 ![0, 0] e slices_S2x1600000_S1x1600000_0_0) shapeCasts_S1x1600000_S1600000 i)
      (iotaInDim S100000 32 0) = Cert.Spec.src e := rfl

/-- The edges' destinations: row 1 of the edge array, then every node once. -/
theorem fold_dst (e : IVec S2x1600000 32) :
    join (fun i => shapeCast main_v5.ty.shape (extractStridedSlice S1x1600000 ![1, 0] e slices_S2x1600000_S1x1600000_1_0) shapeCasts_S1x1600000_S1600000 i)
      (iotaInDim S100000 32 0) = Cert.Spec.dst e := rfl

/-- Node numbers as a column of gather indices, the negative ones counted from the end (each operation at the buffer types
    the program gives it). -/
theorem fold_col (v : (⟨S1700000, .i32⟩ : BufTy).Contents (Elt Ideal)) :
    (broadcastInDim S1700000x1 ![0] bcast_S1700000_S1700000x1_0 : (⟨S1700000, .i32⟩ : BufTy).Contents (Elt Ideal) → (⟨S1700000x1, .i32⟩ : BufTy).Contents (Elt Ideal))
      ((select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal))
        ((cmpi .slt : (⟨S1700000, .i32⟩ : BufTy).Contents (Elt Ideal) → (⟨S1700000, .i32⟩ : BufTy).Contents (Elt Ideal) → (⟨S1700000, .i1⟩ : BufTy).Contents (Elt Ideal)) v
          ((broadcastInDim S1700000 ![] bcast_S_S1700000 : (⟨S_, .i32⟩ : BufTy).Contents (Elt Ideal) → (⟨S1700000, .i32⟩ : BufTy).Contents (Elt Ideal)) (constantI S_ 32 0#32)))
        ((addi : (⟨S1700000, .i32⟩ : BufTy).Contents (Elt Ideal) → (⟨S1700000, .i32⟩ : BufTy).Contents (Elt Ideal) → (⟨S1700000, .i32⟩ : BufTy).Contents (Elt Ideal)) v
          ((broadcastInDim S1700000 ![] bcast_S_S1700000 : (⟨S_, .i32⟩ : BufTy).Contents (Elt Ideal) → (⟨S1700000, .i32⟩ : BufTy).Contents (Elt Ideal)) (constantI S_ 32 100000#32)))
        v) = Cert.Spec.col v := rfl

/-- The degrees: ones scattered onto the destinations. -/
theorem fold_deg (e : IVec S2x1600000 32) :
    Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (Cert.Spec.dst e))
      (broadcastInDim S1700000 ![] bcast_S_S1700000 (constant (F := Ideal) S_ .f32 0x3F800000#32)) = Cert.Spec.deg e := rfl

/-- The inverse square root of the degree where it is positive, zero elsewhere. -/
theorem fold_dinv (e : IVec S2x1600000 32) :
    select (cmpf (F := Ideal) .ogt (Cert.Spec.deg e) (broadcastInDim S100000 ![] bcast_S_S100000 (constant (F := Ideal) S_ .f32 0x00000000#32)))
      (Host.rsqrt (F := Ideal) (Cert.Spec.deg e))
      (broadcastInDim S100000 ![] bcast_S_S100000 (constant (F := Ideal) S_ .f32 0x00000000#32)) = Cert.Spec.dinv e := rfl

/-- An edge's weight. -/
theorem fold_norm (e : IVec S2x1600000 32) :
    mulf (Host.gather gather_S100000_S1700000x1_S1700000_n_0_n_n_0_1_1 (Cert.Spec.dinv e) (Cert.Spec.col (Cert.Spec.src e)))
      (Host.gather gather_S100000_S1700000x1_S1700000_n_0_n_n_0_1_1 (Cert.Spec.dinv e) (Cert.Spec.col (Cert.Spec.dst e)))
      = Cert.Spec.norm e := rfl

/-- The weights as a column. -/
theorem fold_normCol (e : IVec S2x1600000 32) :
    broadcastInDim S1700000x1 ![0] bcast_S1700000_S1700000x1_0 (Cert.Spec.norm e) = Cert.Spec.normCol e := rfl

/-- Message passing on 64 features … -/
theorem fold_agg64 (y : FVec Ideal S100000x64 .f32) (e : IVec S2x1600000 32) :
    Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 (Cert.Spec.dst e))
      (mulf (Host.gather gather_S100000x64_S1700000x1_S1700000x64_1_0_n_n_0_1_164 y (Cert.Spec.col (Cert.Spec.src e)))
        (broadcastInDim S1700000x64 ![0, 1] bcast_S1700000x1_S1700000x64_0_1 (Cert.Spec.normCol e))) = Cert.Spec.agg64 y e := rfl

/-- … and on 40. -/
theorem fold_agg40 (y : FVec Ideal S100000x40 .f32) (e : IVec S2x1600000 32) :
    Host.scatterAdd (F := Ideal) scatter_S100000x40_S1700000x1_S1700000x40_1_0_0_1
      (broadcastInDim S100000x40 ![] bcast_S_S100000x40 (constant (F := Ideal) S_ .f32 0x00000000#32))
      (broadcastInDim S1700000x1 ![0] bcast_S1700000_S1700000x1_0 (Cert.Spec.dst e))
      (mulf (Host.gather gather_S100000x40_S1700000x1_S1700000x40_1_0_n_n_0_1_140 y (Cert.Spec.col (Cert.Spec.src e)))
        (broadcastInDim S1700000x40 ![0, 1] bcast_S1700000x1_S1700000x40_0_1 (Cert.Spec.normCol e))) = Cert.Spec.agg40 y e := rfl

/-- Every entry clamped below by zero. -/
theorem fold_relu64 (y : FVec Ideal S100000x64 .f32) :
    maximumf y (broadcastInDim S100000x64 ![] bcast_S_S100000x64 (constant (F := Ideal) S_ .f32 0x00000000#32)) = Cert.Spec.relu64 y := rfl
theorem fold_relu40 (y : FVec Ideal S100000x40 .f32) :
    maximumf y (broadcastInDim S100000x40 ![] bcast_S_S100000x40 (constant (F := Ideal) S_ .f32 0x00000000#32)) = Cert.Spec.relu40 y := rfl

/-- The three whole products. -/
theorem fold_lin0 (x : FVec Ideal S100000x128 .f32) (w : FVec Ideal S128x64 .f32) :
    Host.dotGeneral (F := Ideal) dot_S100000x128_S128x64_S100000x64_1_0_0_1_n_n none x w = Cert.Spec.lin0 x w := rfl
theorem fold_lin1 (h : FVec Ideal S100000x64 .f32) (w : FVec Ideal S64x64 .f32) :
    Host.dotGeneral (F := Ideal) dot_S100000x64_S64x64_S100000x64_1_0_0_1_n_n none h w = Cert.Spec.lin1 h w := rfl
theorem fold_lin2 (h : FVec Ideal S100000x64 .f32) (w : FVec Ideal S64x40 .f32) :
    Host.dotGeneral (F := Ideal) dot_S100000x64_S64x40_S100000x40_1_0_0_1_n_n none h w = Cert.Spec.lin2 h w := rfl

end Cert.ReferenceIdeal.Folds

end
-- ==== Proof.RefValue.lean ====
/-
  What the reference program's result buffer holds at the end, as a function of the five argument arrays.

  The reference is a straight line of 100 host operations, so every buffer ends at the fold of the operations over the launch
  contents. Read at the result buffer, the fold is the operations' composed term of the launch contents at the five argument
  buffers; named piece by piece, innermost first (the edges' sources and destinations, the gather indices, the degrees, their
  inverse square roots, the edges' weights, then per layer the product, the message passing and the clamp), that term is the
  specification's `out`. No operation writes an argument's buffer.
-/
import proofs.«117468_j39530878992718_1_alg».proof.Proof.RefRun
import proofs.«117468_j39530878992718_1_alg».proof.Proof.Spec
import proofs.«117468_j39530878992718_1_alg».proof.Proof.RefFolds
import proofs.«117468_j39530878992718_1_alg».proof.Proof.LibAfter
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.RunP Cert.ReferenceIdeal.Folds

variable (m : (ℓ : Loc nD τ sig) → Buf (Elt Ideal) ℓ)

/-- The launch contents at a buffer are the launch memory's. -/
theorem launch_at (c : Dev nD) (b : Ref sig .tc) :
    launchContents m c (Proc.devRef .tc b) = m ((c.tc : Thread nD τ).loc b) := rfl

/-- The contents after the first seven operations, which compute the edges' sources and destinations. -/
def Q0 (c : Dev nD) : Valuation τ sig (Elt Ideal) := after ((ops (F := Ideal)).take 7) (launchContents m c)

/-- The whole line, cut after its seventh operation. -/
theorem ops_split (c : Dev nD) (b : DevRef τ sig) :
    after (ops (F := Ideal)) (launchContents m c) b = after ((ops (F := Ideal)).drop 7) (Q0 m c) b := by
  rw [Cert.Lib.After.after_split 7 ops]; rfl

theorem Q0_v3 (c : Dev nD) : Q0 m c (Proc.devRef .tc main_v3) = Cert.Spec.src (m ((c.tc : Thread nD τ).loc main_arg1)) := by
  unfold Q0
  simp only [ops, join_eq, List.take_succ_cons, List.take_zero]
  after_results_simp
  simp only [launch_at m c main_arg1]
  exact fold_src _

theorem Q0_v6 (c : Dev nD) : Q0 m c (Proc.devRef .tc main_v6) = Cert.Spec.dst (m ((c.tc : Thread nD τ).loc main_arg1)) := by
  unfold Q0
  simp only [ops, join_eq, List.take_succ_cons, List.take_zero]
  after_results_simp
  simp only [launch_at m c main_arg1]
  exact fold_dst _

/-- The first seven operations write no argument. -/
theorem Q0_arg (c : Dev nD) (b : Ref sig .tc)
    (hb : b = main_arg0 ∨ b = main_arg2 ∨ b = main_arg3 ∨ b = main_arg4) :
    Q0 m c (Proc.devRef .tc b) = m ((c.tc : Thread nD τ).loc b) := by
  unfold Q0
  rcases hb with rfl | rfl | rfl | rfl <;>
    (simp only [ops, List.take_succ_cons, List.take_zero]; after_results_simp)

set_option maxHeartbeats 8000000 in
/-- THE RESULT: the specification's `out` of the five arguments. -/
theorem result_eq (c : Dev nD) : after (ops (F := Ideal)) (launchContents m c) (Proc.devRef .tc main_v74)
    = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ops_split]
  simp only [ops, List.drop_succ_cons, List.drop_zero]
  after_results_simp
  simp only [TRef.toBuf, TRef.ofBuf, cast_eq, id, Q0_v3 m c, Q0_v6 m c, Q0_arg m c main_arg0 (.inl rfl),
    Q0_arg m c main_arg2 (.inr (.inl rfl)), Q0_arg m c main_arg3 (.inr (.inr (.inl rfl))), Q0_arg m c main_arg4 (.inr (.inr (.inr rfl))),
    fold_col (Cert.Spec.src (m ((c.tc : Thread nD τ).loc main_arg1))), fold_col (Cert.Spec.dst (m ((c.tc : Thread nD τ).loc main_arg1))), fold_deg (m ((c.tc : Thread nD τ).loc main_arg1)), fold_dinv (m ((c.tc : Thread nD τ).loc main_arg1)), fold_norm (m ((c.tc : Thread nD τ).loc main_arg1)), fold_normCol (m ((c.tc : Thread nD τ).loc main_arg1)),
    fold_lin0 (m ((c.tc : Thread nD τ).loc main_arg0)) (m ((c.tc : Thread nD τ).loc main_arg2)),
    fold_lin1 _ (m ((c.tc : Thread nD τ).loc main_arg3)), fold_lin2 _ (m ((c.tc : Thread nD τ).loc main_arg4)),
    fold_agg64 _ (m ((c.tc : Thread nD τ).loc main_arg1)), fold_agg40 _ (m ((c.tc : Thread nD τ).loc main_arg1))]
  unfold Cert.Spec.out Cert.Spec.h3 Cert.Spec.h2 Cert.Spec.h1 Cert.Spec.relu40 Cert.Spec.relu64; with_reducible rfl

set_option maxHeartbeats 2000000 in
/-- The arguments are written by no operation. -/
theorem after_arg (c : Dev nD) (b : Ref sig .tc)
    (hb : b = main_arg0 ∨ b = main_arg1 ∨ b = main_arg2 ∨ b = main_arg3 ∨ b = main_arg4) :
    after (ops (F := Ideal)) (launchContents m c) (Proc.devRef .tc b) = m ((c.tc : Thread nD τ).loc b) := by
  rcases hb with rfl | rfl | rfl | rfl | rfl <;> (simp only [ops]; after_results_simp)

end Cert.ReferenceIdeal.RefValue

end
-- ==== Proof.lean ====
/-
  A three-layer graph convolution on 100000 nodes and 1600000 edges (features 128 → 64 → 64 → 40): the kernel program
  against the plain array program, over the extended reals.

  Both programs first turn the edge array into the edges' sources and destinations (a self-edge added at every node) and a
  weight per edge, `dinv (source) · dinv (destination)` with `dinv` the inverse square root of a node's degree. A layer then
  multiplies the node features by a weight matrix, gathers the product's rows at the sources, scales them by the edges' weights
  and adds them into the rows of the destinations; the features are clamped below by zero before the second and the third
  layer, and once more at the end. The array program does each product as one whole matrix product and each clamp as one
  whole-array maximum after the layer. The kernel program does each product in 20 blocks of 5000 rows, rounding both factors
  to a narrower float format on the way in, and folds the clamp BEFORE a product into that product's blocks; its last clamp is
  a fourth blockwise kernel.

  Over the extended reals the rounding is the identity, and a block of rows of a product is the product of that block of
  rows: entry `(r, e)` is the sum over `f` of `x (r, f) · w (f, e)` either way, the clamp applied entry by entry to the
  same `x (r, f)`. So each kernel's output array is the whole-array function the array program applies at that place, and
  since everything between the kernels is the same sequence of host operations in both programs, both end at ONE function of
  the arguments, `Cert.Spec.out`. No law of arithmetic beyond that is used, and none that needs the inputs finite.

  The three frames: the two kernel programs' are the generated ones; the array program's is its straight-line run with the
  result forgotten. The idealization rewrote nothing, so `preserves` is trivial.
-/
import proofs.«117468_j39530878992718_1_alg».proof.Defs
import proofs.«117468_j39530878992718_1_alg».proof.Proof.Gen.Kernel
import proofs.«117468_j39530878992718_1_alg».proof.Proof.Gen.Kernel.Skeleton
import proofs.«117468_j39530878992718_1_alg».proof.Proof.Gen.Kernel.Launch
import proofs.«117468_j39530878992718_1_alg».proof.Proof.Gen.Kernel.Points
import proofs.«117468_j39530878992718_1_alg».proof.Proof.Gen.Kernel.Frame
import proofs.«117468_j39530878992718_1_alg».proof.Proof.Gen.KernelIdeal
import proofs.«117468_j39530878992718_1_alg».proof.Proof.Gen.KernelIdeal.Skeleton
import proofs.«117468_j39530878992718_1_alg».proof.Proof.Gen.KernelIdeal.Launch
import proofs.«117468_j39530878992718_1_alg».proof.Proof.Gen.KernelIdeal.Points
import proofs.«117468_j39530878992718_1_alg».proof.Proof.Gen.KernelIdeal.Frame
import proofs.«117468_j39530878992718_1_alg».proof.Proof.Gen.ReferenceIdeal
import proofs.«117468_j39530878992718_1_alg».proof.Proof.Gen.Pre_finite_inputs
import proofs.«117468_j39530878992718_1_alg».proof.Proof.KernelRun
import proofs.«117468_j39530878992718_1_alg».proof.Proof.KernelValue
import proofs.«117468_j39530878992718_1_alg».proof.Proof.RefRun
import proofs.«117468_j39530878992718_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The array program's run with everything but the arguments forgotten: no operation writes an argument. -/
theorem frame_referenceIdeal : Cert.frame_ReferenceIdeal := fun m ρ _ =>
  (θ_run Cert.ReferenceIdeal.defs _ _).mono
    (fun _ h c =>
      ⟨(h c Cert.ReferenceIdeal.main_arg0).trans (Cert.ReferenceIdeal.RefValue.after_arg m c _ (.inl rfl)),
       (h c Cert.ReferenceIdeal.main_arg1).trans (Cert.ReferenceIdeal.RefValue.after_arg m c _ (.inr (.inl rfl))),
       (h c Cert.ReferenceIdeal.main_arg2).trans (Cert.ReferenceIdeal.RefValue.after_arg m c _ (.inr (.inr (.inl rfl)))),
       (h c Cert.ReferenceIdeal.main_arg3).trans (Cert.ReferenceIdeal.RefValue.after_arg m c _ (.inr (.inr (.inr (.inl rfl))))),
       (h c Cert.ReferenceIdeal.main_arg4).trans (Cert.ReferenceIdeal.RefValue.after_arg m c _ (.inr (.inr (.inr (.inr rfl)))))⟩)
    (Cert.ReferenceIdeal.RunP.run_raw (F := Ideal) m ρ)

theorem preserves : Cert.preserves_Kernel_KernelIdeal := trivial

/-- Both programs end with the result buffer at `Cert.Spec.out` of the (agreeing) arguments. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KValue.W10_v70 m ρ c), (h c).2⟩)
      (Cert.KernelIdeal.Named.run_named (F := Ideal) m ρ)
  · refine (θ_run Cert.ReferenceIdeal.defs _ _).mono (fun _ h c => ⟨?_,
        (h c Cert.ReferenceIdeal.main_arg0).trans (Cert.ReferenceIdeal.RefValue.after_arg m' c _ (.inl rfl)),
        (h c Cert.ReferenceIdeal.main_arg1).trans (Cert.ReferenceIdeal.RefValue.after_arg m' c _ (.inr (.inl rfl))),
        (h c Cert.ReferenceIdeal.main_arg2).trans (Cert.ReferenceIdeal.RefValue.after_arg m' c _ (.inr (.inr (.inl rfl)))),
        (h c Cert.ReferenceIdeal.main_arg3).trans (Cert.ReferenceIdeal.RefValue.after_arg m' c _ (.inr (.inr (.inr (.inl rfl))))),
        (h c Cert.ReferenceIdeal.main_arg4).trans (Cert.ReferenceIdeal.RefValue.after_arg m' c _ (.inr (.inr (.inr (.inr rfl)))))⟩)
      (Cert.ReferenceIdeal.RunP.run_raw (F := Ideal) m' ρ')
    refine (h c Cert.ReferenceIdeal.main_v74).trans ?_
    rw [Cert.ReferenceIdeal.RefValue.result_eq m' c,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
